-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x512 : Shape := ⟨3, ![32, 256, 512]⟩
abbrev S32x256x1 : Shape := ⟨3, ![32, 256, 1]⟩
abbrev S_ : Shape := ⟨0, ![]⟩

class Facts : Prop where
  bcast_S_S32x256x512 : S_.BroadcastsInDim S32x256x512 (![] : Fin 0 → Fin S32x256x512.rank)
  reducesTo_S32x256x512_S_d0_1_2 : S32x256x512.ReducesTo [0, 1, 2] S_
  h_S_ : 0 < S_.numel
  bcast_S_S32x256x1 : S_.BroadcastsInDim S32x256x1 (![] : Fin 0 → Fin S32x256x1.rank)
  reducesTo_S32x256x1_S_d0_1_2 : S32x256x1.ReducesTo [0, 1, 2] S_

variable [Facts]

def fn {F : FTy → Type} [FloatOps F] (main_arg0 : FVec F S32x256x512 .f32) (main_arg1 : FVec F S32x256x1 .f32) : IVec S_ 1 :=
  let main_v0 : FVec F S32x256x512 .f32 := Host.absf main_arg0
  let main_cst : FVec F S_ .f32 := constant S_ .f32 0x7F800000#32
  let main_v1 : FVec F S32x256x512 .f32 := broadcastInDim S32x256x512 ![] bcast_S_S32x256x512 main_cst
  let main_v2 : IVec S32x256x512 1 := cmpf .olt main_v0 main_v1
  let main_c : IVec S_ 1 := constantI S_ 1 1#1
  let main_v3 : IVec S_ 1 := (fun x v => Host.reduce IntOp.andi x v reducesTo_S32x256x512_S_d0_1_2 h_S_) main_v2 main_c
  let main_v4 : FVec F S32x256x1 .f32 := Host.absf main_arg1
  let main_cst_0 : FVec F S_ .f32 := constant S_ .f32 0x7F800000#32
  let main_v5 : FVec F S32x256x1 .f32 := broadcastInDim S32x256x1 ![] bcast_S_S32x256x1 main_cst_0
  let main_v6 : IVec S32x256x1 1 := cmpf .olt main_v4 main_v5
  let main_c_1 : IVec S_ 1 := constantI S_ 1 1#1
  let main_v7 : IVec S_ 1 := (fun x v => Host.reduce IntOp.andi x v reducesTo_S32x256x1_S_d0_1_2 h_S_) main_v6 main_c_1
  let main_v8 : IVec S_ 1 := andi main_v3 main_v7
  main_v8
-- ==== Kernel.lean ====
abbrev S32x256x512 : Shape := ⟨3, ![32, 256, 512]⟩
abbrev S32x256x1 : Shape := ⟨3, ![32, 256, 1]⟩
abbrev S_ : Shape := ⟨0, ![]⟩
abbrev S32x256 : Shape := ⟨2, ![32, 256]⟩
abbrev S32x1x256 : Shape := ⟨3, ![32, 1, 256]⟩
abbrev S32x2048x512 : Shape := ⟨3, ![32, 2048, 512]⟩
abbrev S2x256x512 : Shape := ⟨3, ![2, 256, 512]⟩
abbrev S2x1x256 : Shape := ⟨3, ![2, 1, 256]⟩
abbrev S2x2048x512 : Shape := ⟨3, ![2, 2048, 512]⟩
abbrev S2048x1 : Shape := ⟨2, ![2048, 1]⟩
abbrev S1x1x256 : Shape := ⟨3, ![1, 1, 256]⟩
abbrev S1x256 : Shape := ⟨2, ![1, 256]⟩
abbrev S2048x256 : Shape := ⟨2, ![2048, 256]⟩
abbrev S1x256x512 : Shape := ⟨3, ![1, 256, 512]⟩
abbrev S256x512 : Shape := ⟨2, ![256, 512]⟩
abbrev S2048x512 : Shape := ⟨2, ![2048, 512]⟩
abbrev S1x2048x512 : Shape := ⟨3, ![1, 2048, 512]⟩

abbrev nBuf : Space → Nat
  | .hbm => 23
  | .vmem => 8
  | .smem => 0
  | _ => 0

abbrev bufTy : (tb : Table) → Fin (tcTables nBuf tb) → BufTy
  | .hbm, ⟨0, _⟩ => ⟨S32x256x512, .f32⟩
  | .hbm, ⟨1, _⟩ => ⟨S32x256x1, .f32⟩
  | .hbm, ⟨2, _⟩ => ⟨S_, .f32⟩
  | .hbm, ⟨3, _⟩ => ⟨S32x256x1, .f32⟩
  | .hbm, ⟨4, _⟩ => ⟨S32x256x1, .i1⟩
  | .hbm, ⟨5, _⟩ => ⟨S32x256x1, .i32⟩
  | .hbm, ⟨6, _⟩ => ⟨S_, .f32⟩
  | .hbm, ⟨7, _⟩ => ⟨S32x256x1, .f32⟩
  | .hbm, ⟨8, _⟩ => ⟨S32x256x1, .f32⟩
  | .hbm, ⟨9, _⟩ => ⟨S_, .f32⟩
  | .hbm, ⟨10, _⟩ => ⟨S32x256x1, .f32⟩
  | .hbm, ⟨11, _⟩ => ⟨S32x256x1, .f32⟩
  | .hbm, ⟨12, _⟩ => ⟨S32x256x1, .f32⟩
  | .hbm, ⟨13, _⟩ => ⟨S32x256x1, .i32⟩
  | .hbm, ⟨14, _⟩ => ⟨S32x256x1, .i32⟩
  | .hbm, ⟨15, _⟩ => ⟨S32x256, .i32⟩
  | .hbm, ⟨16, _⟩ => ⟨S_, .i32⟩
  | .hbm, ⟨17, _⟩ => ⟨S_, .i32⟩
  | .hbm, ⟨18, _⟩ => ⟨S32x256, .i32⟩
  | .hbm, ⟨19, _⟩ => ⟨S32x256, .i32⟩
  | .hbm, ⟨20, _⟩ => ⟨S32x1x256, .i32⟩
  | .hbm, ⟨21, _⟩ => ⟨S32x1x256, .i32⟩
  | .hbm, ⟨22, _⟩ => ⟨S32x2048x512, .f32⟩
  | .local _ .vmem, ⟨0, _⟩ => ⟨S2x256x512, .f32⟩
  | .local _ .vmem, ⟨1, _⟩ => ⟨S2x256x512, .f32⟩
  | .local _ .vmem, ⟨2, _⟩ => ⟨S2x1x256, .i32⟩
  | .local _ .vmem, ⟨3, _⟩ => ⟨S2x1x256, .i32⟩
  | .local _ .vmem, ⟨4, _⟩ => ⟨S2x1x256, .i32⟩
  | .local _ .vmem, ⟨5, _⟩ => ⟨S2x1x256, .i32⟩
  | .local _ .vmem, ⟨6, _⟩ => ⟨S2x2048x512, .f32⟩
  | .local _ .vmem, ⟨7, _⟩ => ⟨S2x2048x512, .f32⟩
  | _, _ => ⟨S32x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_call0_c : Ref sig .tc := ⟨.hbm, 16, rfl⟩
abbrev main_call0_call0_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S32x256x1 : S_.BroadcastsInDim S32x256x1 (![] : Fin 0 → Fin S32x256x1.rank)
  natLt_1_32 : 1 < 32
  shapeCasts_S32x256x1_S32x256 : S32x256x1.ShapeCasts S32x256
  bcast_S_S_ : S_.BroadcastsInDim S_ (![] : Fin 0 → Fin S_.rank)
  reduceWindows_S32x256_S32x256_w1s1p0_0_w256s1p255_0 : S32x256.ReduceWindows (![1, 256] : Fin 2 → Nat) ![1, 1] ![0, 255] ![0, 0] S32x256
  h_S_ : 0 < S_.numel
  shapeCasts_S32x256_S32x1x256 : S32x256.ShapeCasts S32x1x256
  iota_S2048x1_d0_w32 : S2048x1.Iotas .tc 32 [0]
  inb_S2x1x256_S1x1x256_0_0_0 : ∀ a, (![0, 0, 0] : Fin 3 → Nat) a + S1x1x256.size a ≤ S2x1x256.size a
  h_S1x1x256 : 0 < S1x1x256.numel
  shapeCasts_S1x1x256_S1x256 : S1x1x256.ShapeCasts S1x256
  broadcasts_S2048x1_S2048x256 : S2048x1.Broadcasts S2048x256
  broadcasts_S1x256_S2048x256 : S1x256.Broadcasts S2048x256
  bitsLt_bf16_f32 : FTy.bits .bf16 < FTy.bits .f32
  inb_S2x256x512_S1x256x512_0_0_0 : ∀ a, (![0, 0, 0] : Fin 3 → Nat) a + S1x256x512.size a ≤ S2x256x512.size a
  h_S1x256x512 : 0 < S1x256x512.numel
  shapeCasts_S1x256x512_S256x512 : S1x256x512.ShapeCasts S256x512
  inb_S2x2048x512_S1x2048x512_0_0_0 : ∀ a, (![0, 0, 0] : Fin 3 → Nat) a + S1x2048x512.size a ≤ S2x2048x512.size a
  h_S1x2048x512 : 0 < S1x2048x512.numel
  shapeCasts_S1x2048x512_S2048x512 : S1x2048x512.ShapeCasts S2048x512
  shapeCasts_S2048x512_S1x2048x512 : S2048x512.ShapeCasts S1x2048x512
  inb_S2x1x256_S1x1x256_1_0_0 : ∀ a, (![1, 0, 0] : Fin 3 → Nat) a + S1x1x256.size a ≤ S2x1x256.size a
  inb_S2x256x512_S1x256x512_1_0_0 : ∀ a, (![1, 0, 0] : Fin 3 → Nat) a + S1x256x512.size a ≤ S2x256x512.size a
  inb_S2x2048x512_S1x2048x512_1_0_0 : ∀ a, (![1, 0, 0] : Fin 3 → Nat) a + S1x2048x512.size a ≤ S2x2048x512.size a
  dot_S2048x256_S256x512_S2048x512_1_0_0_1_n_n_wf : DotDims.WF S2048x256 S256x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x256x512.size a ≤ S32x256x512.size a
  hwx0_0 : ∀ i : grid0.Coords, EltTy.bits .f32 = 32 ∨ (Rect.block (s := S32x256x512) S2x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1x256.size a ≤ S32x1x256.size a
  hwx0_1 : ∀ i : grid0.Coords, EltTy.bits .i32 = 32 ∨ (Rect.block (s := S32x1x256) S2x1x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1x256.size a ≤ S32x1x256.size a
  hwx0_2 : ∀ i : grid0.Coords, EltTy.bits .i32 = 32 ∨ (Rect.block (s := S32x1x256) S2x1x256.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x2048x512.size a ≤ S32x2048x512.size a
  hwx0_3 : ∀ i : grid0.Coords, EltTy.bits .f32 = 32 ∨ (Rect.block (s := S32x2048x512) S2x2048x512.size (cc0_transform_3 i) (hinb0_3 i)).WholeWords (EltTy.packing .f32)

variable [Facts₀]

def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf

abbrev win0_0 : Pipeline.Window sig grid0 :=
  Pipeline.Window.ofSpec (Memref.whole main_arg0) S2x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2x1x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S2x1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S2x2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x256x512 : Shape := ⟨3, ![32, 256, 512]⟩
abbrev S32x256x1 : Shape := ⟨3, ![32, 256, 1]⟩
abbrev S_ : Shape := ⟨0, ![]⟩
abbrev S32x256 : Shape := ⟨2, ![32, 256]⟩
abbrev S2048 : Shape := ⟨1, ![2048]⟩
abbrev S1x2048x1 : Shape := ⟨3, ![1, 2048, 1]⟩
abbrev S32x1x256 : Shape := ⟨3, ![32, 1, 256]⟩
abbrev S32x2048x256 : Shape := ⟨3, ![32, 2048, 256]⟩
abbrev S32x2048x512 : Shape := ⟨3, ![32, 2048, 512]⟩

abbrev nBuf : Space → Nat
  | .hbm => 33
  | .vmem => 0
  | .smem => 0
  | _ => 0

abbrev bufTy : (tb : Table) → Fin (tcTables nBuf tb) → BufTy
  | .hbm, ⟨0, _⟩ => ⟨S32x256x512, .f32⟩
  | .hbm, ⟨1, _⟩ => ⟨S32x256x1, .f32⟩
  | .hbm, ⟨2, _⟩ => ⟨S_, .f32⟩
  | .hbm, ⟨3, _⟩ => ⟨S32x256x1, .f32⟩
  | .hbm, ⟨4, _⟩ => ⟨S32x256x1, .i1⟩
  | .hbm, ⟨5, _⟩ => ⟨S32x256x1, .i32⟩
  | .hbm, ⟨6, _⟩ => ⟨S_, .f32⟩
  | .hbm, ⟨7, _⟩ => ⟨S32x256x1, .f32⟩
  | .hbm, ⟨8, _⟩ => ⟨S32x256x1, .f32⟩
  | .hbm, ⟨9, _⟩ => ⟨S_, .f32⟩
  | .hbm, ⟨10, _⟩ => ⟨S32x256x1, .f32⟩
  | .hbm, ⟨11, _⟩ => ⟨S32x256x1, .f32⟩
  | .hbm, ⟨12, _⟩ => ⟨S32x256x1, .f32⟩
  | .hbm, ⟨13, _⟩ => ⟨S32x256x1, .i32⟩
  | .hbm, ⟨14, _⟩ => ⟨S32x256x1, .i32⟩
  | .hbm, ⟨15, _⟩ => ⟨S32x256, .i32⟩
  | .hbm, ⟨16, _⟩ => ⟨S_, .i32⟩
  | .hbm, ⟨17, _⟩ => ⟨S_, .i32⟩
  | .hbm, ⟨18, _⟩ => ⟨S32x256, .i32⟩
  | .hbm, ⟨19, _⟩ => ⟨S32x256, .i32⟩
  | .hbm, ⟨20, _⟩ => ⟨S2048, .i32⟩
  | .hbm, ⟨21, _⟩ => ⟨S1x2048x1, .i32⟩
  | .hbm, ⟨22, _⟩ => ⟨S32x1x256, .i32⟩
  | .hbm, ⟨23, _⟩ => ⟨S32x2048x256, .i32⟩
  | .hbm, ⟨24, _⟩ => ⟨S32x2048x256, .i32⟩
  | .hbm, ⟨25, _⟩ => ⟨S32x2048x256, .i1⟩
  | .hbm, ⟨26, _⟩ => ⟨S32x1x256, .i32⟩
  | .hbm, ⟨27, _⟩ => ⟨S32x2048x256, .i32⟩
  | .hbm, ⟨28, _⟩ => ⟨S32x2048x256, .i32⟩
  | .hbm, ⟨29, _⟩ => ⟨S32x2048x256, .i1⟩
  | .hbm, ⟨30, _⟩ => ⟨S32x2048x256, .i1⟩
  | .hbm, ⟨31, _⟩ => ⟨S32x2048x256, .f32⟩
  | .hbm, ⟨32, _⟩ => ⟨S32x2048x512, .f32⟩
  | _, _ => ⟨S32x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_call0_c : Ref sig .tc := ⟨.hbm, 16, rfl⟩
abbrev main_call0_call0_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]

class Facts₀ : Prop where
  bcast_S_S32x256x1 : S_.BroadcastsInDim S32x256x1 (![] : Fin 0 → Fin S32x256x1.rank)
  natLt_1_32 : 1 < 32
  shapeCasts_S32x256x1_S32x256 : S32x256x1.ShapeCasts S32x256
  bcast_S_S_ : S_.BroadcastsInDim S_ (![] : Fin 0 → Fin S_.rank)
  reduceWindows_S32x256_S32x256_w1s1p0_0_w256s1p255_0 : S32x256.ReduceWindows (![1, 256] : Fin 2 → Nat) ![1, 1] ![0, 255] ![0, 0] S32x256
  h_S_ : 0 < S_.numel
  bcast_S2048_S1x2048x1_1 : S2048.BroadcastsInDim S1x2048x1 (![1] : Fin 1 → Fin S1x2048x1.rank)
  bcast_S32x256_S32x1x256_0_2 : S32x256.BroadcastsInDim S32x1x256 (![0, 2] : Fin 2 → Fin S32x1x256.rank)
  bcast_S1x2048x1_S32x2048x256_0_1_2 : S1x2048x1.BroadcastsInDim S32x2048x256 (![0, 1, 2] : Fin 3 → Fin S32x2048x256.rank)
  bcast_S32x1x256_S32x2048x256_0_1_2 : S32x1x256.BroadcastsInDim S32x2048x256 (![0, 1, 2] : Fin 3 → Fin S32x2048x256.rank)
  dot_S32x2048x256_S32x256x512_S32x2048x512_2_1_1_2_0_0_wf : DotDims.WF S32x2048x256 S32x256x512 S32x2048x512 [2] [1] [1] [2] [0] [0]

variable [Facts₀]

def dot_S32x2048x256_S32x256x512_S32x2048x512_2_1_1_2_0_0 : DotDims S32x2048x256 S32x256x512 S32x2048x512 where
  lhsContracting := [2]
  rhsContracting := [1]
  lhsNonContracting := [1]
  rhsNonContracting := [2]
  lhsBatch := [0]
  rhsBatch := [0]
  wf := dot_S32x2048x256_S32x256x512_S32x2048x512_2_1_1_2_0_0_wf

class Facts : Prop extends Facts₀ where

variable [Facts]
-- ==== Proof.Align.lean ====
/-
  The length regulator as mathematics, free of both programs.

  From the log-durations `ld[b, p]` both programs compute, with the same operations in the same order, the integer
  duration `dur[b, p] = ⌊2 ^ ld + 1e-4⌋` (kept only where `ld > 0`), its running total along `p`
  `cum[b, p] = dur[b, 0] + … + dur[b, p]` (the end frame of phoneme `p`, exclusive) and `start = cum - dur` (its first
  frame). Frame `t` of batch `b` belongs to phoneme `p` when `start[b, p] ≤ t < cum[b, p]`; the weight of the pair is
  `1` then and `0` otherwise, and the regulated output is

      out[b, t, c] = ∑ p, weight(start[b, p], cum[b, p], t) · enc[b, p, c]    (256 phonemes, 2048 frames, 512 channels).

  The chain `ld ↦ dur ↦ cum ↦ start` is never opened by the certificate: both sides apply it to the same argument, so it
  is carried as the three functions below. What IS used of the integers is only that the one-bit condition, read as a
  float, is the same number whether it is widened to 32 bits and read signed (the kernel) or read unsigned as it is
  (the reference): `toInt_setWidth_bit`.
-/
import Idealize.ShloMosaic.PureOps
import Idealize.ShloMosaic.PureOps.Ideal
import Idealize.ShloMosaic.Lib.ValueIdx

noncomputable section

open scoped BigOperators

namespace Cert.Align

open Idealize.ShloMosaic Idealize.ShloMosaic.ValueIdx

/-! ## Shapes -/

/-- The log-durations, one per batch and phoneme with a trailing unit axis. -/
abbrev SLd : Shape := ⟨3, ![32, 256, 1]⟩
/-- The encoder output: batch, phoneme, channel. -/
abbrev SEnc : Shape := ⟨3, ![32, 256, 512]⟩
/-- One integer per batch and phoneme. -/
abbrev SBP : Shape := ⟨2, ![32, 256]⟩
/-- The regulated output: batch, frame, channel. -/
abbrev SOut : Shape := ⟨3, ![32, 2048, 512]⟩
/-- A scalar. -/
abbrev S0 : Shape := ⟨0, ![]⟩

theorem bcastLd : S0.BroadcastsInDim SLd (![] : Fin 0 → Fin SLd.rank) := by decide
theorem lt_1_32 : 1 < 32 := by decide
theorem castLd : SLd.ShapeCasts SBP := by decide
theorem bcast0 : S0.BroadcastsInDim S0 (![] : Fin 0 → Fin S0.rank) := by decide
theorem windows : SBP.ReduceWindows (![1, 256] : Fin 2 → Nat) ![1, 1] ![0, 255] ![0, 0] SBP := by decide
theorem pos0 : 0 < S0.numel := by decide

/-! ## Durations, end frames, start frames -/

/-- `dur[b, p] = ⌊2 ^ ld[b, p, 0] + 1e-4⌋` as a 32-bit integer, times the bit `ld[b, p, 0] > 0`. -/
def dur (ld : FVec Ideal SLd .f32) : IVec SBP 32 :=
  shapeCast SBP
    (muli
      (fptosi 32
        (Host.floor
          (addf
            (Host.powf (broadcastInDim SLd ![] bcastLd (constant (F := Ideal) S0 .f32 0x40000000#32)) ld)
            (broadcastInDim SLd ![] bcastLd (constant (F := Ideal) S0 .f32 0x38D1B717#32)))))
      (extui 32 (cmpf .ogt ld (broadcastInDim SLd ![] bcastLd (constant (F := Ideal) S0 .f32 0x00000000#32))) lt_1_32))
    castLd

/-- `cum[b, p]`: the sum of `dur[b, ·]` over the window of 256 phonemes ending at `p`, zeros before phoneme 0 —
    the running total of the durations. -/
def cum (ld : FVec Ideal SLd .f32) : IVec SBP 32 :=
  Host.reduceWindow IntOp.addi ![1, 256] ![1, 1] ![0, 255] ![0, 0] (dur ld)
    (broadcastInDim S0 ![] bcast0 (constantI S0 32 0#32)) windows pos0

/-- `start[b, p] = cum[b, p] - dur[b, p]`. -/
def start (ld : FVec Ideal SLd .f32) : IVec SBP 32 := subi (cum ld) (dur ld)

/-! ## The weight of a frame in a phoneme -/

/-- The bit "frame `t` lies in `[s, e)`", both comparisons signed on 32-bit words. -/
def hit (s e : BitVec 32) (t : Nat) : BitVec 1 :=
  IntOp.andi (IntOp.cmpi .sge (BitVec.ofNat 32 t) s) (IntOp.cmpi .slt (BitVec.ofNat 32 t) e)

/-- That bit as an extended real: `1` inside the span, `0` outside. -/
def wgt (s e : BitVec 32) (t : Nat) : EReal := (((hit s e t).toNat : ℝ) : EReal)

/-- A single bit widened with zeros to 32 bits and read as a signed integer is the bit read as a natural number. -/
theorem toInt_setWidth_bit (x : BitVec 1) : (x.setWidth 32).toInt = (x.toNat : ℤ) := by
  rcases BitVec.eq_zero_or_eq_one x with h | h <;> subst h <;> decide

/-- So the kernel's conversion (widen, then signed integer to float) gives the weight. -/
theorem signed_widened_eq_wgt (s e : BitVec 32) (t : Nat) :
    ((((hit s e t).setWidth 32).toInt : ℝ) : EReal) = wgt s e t := by
  unfold wgt
  rw [toInt_setWidth_bit]
  rfl

/-! ## The regulated output -/

/-- `out[b, t, c] = ∑ p, weight(start[b, p], end[b, p], t) · enc[b, p, c]`. -/
def regulate (enc : FVec Ideal SEnc .f32) (s e : IVec SBP 32) : FVec Ideal SOut .f32 :=
  fun j => ∑ p : Fin 256, wgt (s (ix2 (j 0) p)) (e (ix2 (j 0) p)) (j 1).val * enc (ix3 (j 0) p (j 2))

theorem regulate_ix (enc : FVec Ideal SEnc .f32) (s e : IVec SBP 32) (b : Fin 32) (t : Fin 2048) (c : Fin 512) :
    regulate enc s e (ix3 b t c) = ∑ p : Fin 256, wgt (s (ix2 b p)) (e (ix2 b p)) t.val * enc (ix3 b p c) := rfl

end Cert.Align

end
-- ==== Proof.KernelPayload.lean ====
/-
  What the kernel body computes for one batch of its block, read at an index.

  For each of the block's two batches the body builds a [2048, 256] matrix of alignment weights — the frame number down
  the rows (an iota broadcast along the columns), the batch's start and end frames along the columns (a [1, 256] row
  broadcast down the rows), the two signed comparisons joined, the bit widened to 32 bits and converted signed to a
  float, then narrowed to bf16, which changes nothing on the extended reals — and multiplies it into the batch's
  [256, 512] slab of the encoder output, accumulating from zero. At (frame `t`, channel `c`) that product is the sum over
  the phonemes `p` of the weight of `t` in `p` times the slab's entry (p, c).
-/
import proofs.«123536_j65644280152320_2_alg».proof.Proof.Gen.KernelIdeal.Skeleton
import proofs.«123536_j65644280152320_2_alg».proof.Proof.Align
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The frame numbers: an iota down the rows of a [2048, 1] column, broadcast along the 256 columns, reads the row. -/
theorem frameCol_apply (h : S2048x1.Iotas .tc 32 [0]) (h' : S2048x1.Broadcasts S2048x256) (t : Fin 2048) (p : Fin 256) :
    broadcastTo S2048x256 (iota .tc S2048x1 32 [0] h) h' (ix2 t p) = BitVec.ofNat 32 t.val := by
  refine (broadcastTo_apply _ h' (ix2 t p) (ix2 t (0 : Fin 1)) fun ax => ?_).trans ?_
  · match ax with
    | ⟨0, _⟩ => rfl
    | ⟨1, _⟩ => rfl
  exact iota_single_apply .tc S2048x1 32 0 h (ix2 t (0 : Fin 1))

/-- One batch's [1, 1, 256] row of integers, viewed [1, 256] and broadcast down the 2048 rows, reads the column's entry. -/
theorem phonemeRow_apply (x : Vec Ideal S1x1x256 .i32) (h : S1x1x256.ShapeCasts S1x256) (h' : S1x256.Broadcasts S2048x256)
    (t : Fin 2048) (p : Fin 256) :
    broadcastTo S2048x256 (shapeCast S1x256 x h) h' (ix2 t p) = x (ix3 (0 : Fin 1) (0 : Fin 1) p) :=
  (broadcastTo_1b_ab_apply _ h' t p).trans (shapeCast_1ab_ab_apply x h (0 : Fin 1) p)

/-- The alignment matrix of one batch at (frame, phoneme) is the weight of the frame in the phoneme. -/
theorem mask_apply (s e : Vec Ideal S1x1x256 .i32) (t : Fin 2048) (p : Fin 256) :
    k0_pay3 (F := Ideal) s e (ix2 t p)
      = Cert.Align.wgt (s (ix3 (0 : Fin 1) (0 : Fin 1) p)) (e (ix3 (0 : Fin 1) (0 : Fin 1) p)) t.val := by
  unfold k0_pay3
  show ((((IntOp.andi
        (IntOp.cmpi .sge (broadcastTo S2048x256 (iota .tc S2048x1 32 [0] _) _ (ix2 t p))
          (broadcastTo S2048x256 (shapeCast S1x256 s _) _ (ix2 t p)))
        (IntOp.cmpi .slt (broadcastTo S2048x256 (iota .tc S2048x1 32 [0] _) _ (ix2 t p))
          (broadcastTo S2048x256 (shapeCast S1x256 e _) _ (ix2 t p)))).setWidth 32).toInt : ℝ) : EReal) = _
  rw [frameCol_apply, phonemeRow_apply, phonemeRow_apply]
  exact Cert.Align.signed_widened_eq_wgt _ _ _

/-- The product's left and right operand indices at output index (t, c) and phoneme `p`. -/
theorem lhsIdx_eq (t : Fin 2048) (c : Fin 512) (p : Fin 256) :
    dot_S2048x256_S256x512_S2048x512_1_0_0_1_n_n.lhsIdx (ix2 t c)
        ((contrEquiv1 dot_S2048x256_S256x512_S2048x512_1_0_0_1_n_n 256 rfl rfl).symm p) = ix2 t p := by
  funext a
  apply Fin.ext
  match a with
  | ⟨0, _⟩ => rfl
  | ⟨1, _⟩ =>
    exact (DotDims.lhsIdx_val_of_single _ rfl _ _).trans
      (contrEquiv1_symm_val dot_S2048x256_S256x512_S2048x512_1_0_0_1_n_n 256 rfl rfl p)

theorem rhsIdx_eq (t : Fin 2048) (c : Fin 512) (p : Fin 256) :
    dot_S2048x256_S256x512_S2048x512_1_0_0_1_n_n.rhsIdx (ix2 t c)
        ((contrEquiv1 dot_S2048x256_S256x512_S2048x512_1_0_0_1_n_n 256 rfl rfl).symm p) = ix2 p c := by
  funext a
  apply Fin.ext
  match a with
  | ⟨1, _⟩ => rfl
  | ⟨0, _⟩ =>
    exact (DotDims.rhsIdx_val_of_single _ rfl _ _).trans
      (contrEquiv1_symm_val dot_S2048x256_S256x512_S2048x512_1_0_0_1_n_n 256 rfl rfl p)

/-- A [2048, 256] matrix times one batch's [1, 256, 512] slab, accumulated from zero and stored as a [1, 2048, 512]
    piece: at (·, t, c) the sum over `p` of the matrix at (t, p) times the slab at (0, p, c). -/
theorem product_apply (a : FVec Ideal S2048x256 .bf16) (x : Vec Ideal S1x256x512 .f32) (u : Fin 1) (t : Fin 2048) (c : Fin 512) :
    k0_pay1 (F := Ideal) a x (ix3 u t c) = ∑ p : Fin 256, a (ix2 t p) * x (ix3 (0 : Fin 1) p c) := by
  unfold k0_pay1
  refine (shapeCast_ab_1ab_apply _ _ u t c).trans ?_
  refine (Ideal.matmul_constant_zero_apply dot_S2048x256_S256x512_S2048x512_1_0_0_1_n_n none _ _ (ix2 t c)).trans ?_
  rw [← Equiv.sum_comp (contrEquiv1 dot_S2048x256_S256x512_S2048x512_1_0_0_1_n_n 256 rfl rfl).symm]
  refine Finset.sum_congr rfl fun p _ => ?_
  rw [lhsIdx_eq, rhsIdx_eq]
  exact congrArg (a (ix2 t p) * ·) (shapeCast_1ab_ab_apply x _ p c)

/-- The first batch's payload is the same product with the alignment matrix written out in place. -/
theorem pay2_eq (s e : Vec Ideal S1x1x256 .i32) (x : Vec Ideal S1x256x512 .f32) :
    k0_pay2 (F := Ideal) s e x = k0_pay1 (k0_pay3 s e) x := rfl

/-- ONE BATCH of the block: at (·, t, c) the sum over the phonemes of the weight of frame `t` times the slab's entry. -/
theorem batch_apply (s e : Vec Ideal S1x1x256 .i32) (x : Vec Ideal S1x256x512 .f32) (u : Fin 1) (t : Fin 2048) (c : Fin 512) :
    k0_pay1 (F := Ideal) (k0_pay3 s e) x (ix3 u t c)
      = ∑ p : Fin 256, Cert.Align.wgt (s (ix3 (0 : Fin 1) (0 : Fin 1) p)) (e (ix3 (0 : Fin 1) (0 : Fin 1) p)) t.val
          * x (ix3 (0 : Fin 1) p c) := by
  rw [product_apply]
  exact Finset.sum_congr rfl fun p _ => by rw [mask_apply]

end Cert.KernelIdeal.Payload

end
-- ==== Proof.KernelValue.lean ====
/-
  The kernel's output array after the run is the regulated output.

  The grid has 16 points; point `t` stages batches 2t and 2t + 1 of the encoder output and of the start and end frames
  (held as [32, 1, 256] arrays, the [32, 256] arrays of the host side given a unit middle axis) and writes back batches
  2t and 2t + 1 of the output, every frame and channel of them. Inside the block the body fills the two batches one
  after the other, each with the product of that batch's alignment weights and that batch's slab
  (`Cert.KernelIdeal.Payload.batch_apply`), so the block is one function of the staged blocks (`blockOut`), and that
  function is the restriction of `Cert.Align.regulate` to batches 2t, 2t + 1: a block's element sits in its array at
  block index × block size + its own coordinate on every axis. The sixteen blocks tile the output, so the array ends
  as `Cert.Align.regulate` of the encoder output and the start and end frames everywhere.
-/
import proofs.«123536_j65644280152320_2_alg».proof.Proof.Gen.KernelIdeal.Value
import proofs.«123536_j65644280152320_2_alg».proof.Proof.KernelPayload
import Idealize.ShloMosaic.Lib.StableHlo.Run

set_option maxRecDepth 16384

noncomputable section

open scoped BigOperators

namespace Cert.KernelIdeal.KValue

open Cert.KernelIdeal Cert.KernelIdeal.Gen Cert.KernelIdeal.Payload Idealize.ShloMosaic Idealize.ShloMosaic.TcCoe Idealize.SL.Sem
open Idealize.ShloMosaic.ValueIdx Idealize.ShloMosaic.StableHlo
open Idealize.ShloMosaic.Pipeline (Dat)

/-! ## One block as a function of the staged blocks -/

/-- The block the body leaves: batch `i` of the block (0 or 1), frame `r`, channel `q` holds the sum over the phonemes of
    the weight of `r` between that batch's start and end frames times that batch's encoder entry. -/
def blockOut (x0 : Vec Ideal S2x256x512 .f32) (x1 x2 : Vec Ideal S2x1x256 .i32) : Vec Ideal S2x2048x512 .f32 :=
  fun y => ∑ p : Fin 256, Cert.Align.wgt (x1 (ix3 (y 0) (0 : Fin 1) p)) (x2 (ix3 (y 0) (0 : Fin 1) p)) (y 1).val
    * x0 (ix3 (y 0) p (y 2))

/-- The body's stores, batch 1 then batch 0 of the block, are two pieces of that one function. -/
theorem out_eq (x0 : Vec Ideal S2x256x512 .f32) (x1 x2 : Vec Ideal S2x1x256 .i32) :
    out0_3 (F := Ideal) x0 x1 x2 = blockOut x0 x1 x2 := by
  funext y
  unfold out0_3
  refine View.canon_apply_of_pieces (blockOut x0 x1 x2) _ ?_ y (cover0_3 _ _ y)
  intro pc hpc x
  rcases List.mem_cons.mp hpc with rfl | hpc
  · -- the piece at batch 1 of the block
    obtain ⟨u, r, q, rfl⟩ : ∃ (u : Fin 1) (r : Fin 2048) (q : Fin 512), x = ix3 u r q := ⟨x 0, x 1, x 2, eq_ix3 x⟩
    have hu : u.val = 0 := by omega
    refine (batch_apply _ _ _ u r q).trans ?_
    refine Finset.sum_congr rfl fun p _ => ?_
    have e1 : r0_3.idx (ix3 (0 : Fin 1) (0 : Fin 1) p) = ix3 ((r0_5.emb (ix3 u r q)) 0) (0 : Fin 1) p := by
      funext a; apply Fin.ext
      match a with
      | ⟨0, _⟩ => show 1 + 1 * 0 = 1 + 1 * u.val; omega
      | ⟨1, _⟩ => rfl
      | ⟨2, _⟩ => show 0 + 1 * p.val = p.val; omega
    have e0 : r0_4.idx (ix3 (0 : Fin 1) p q) = ix3 ((r0_5.emb (ix3 u r q)) 0) p ((r0_5.emb (ix3 u r q)) 2) := by
      funext a; apply Fin.ext
      match a with
      | ⟨0, _⟩ => show 1 + 1 * 0 = 1 + 1 * u.val; omega
      | ⟨1, _⟩ => show 0 + 1 * p.val = p.val; omega
      | ⟨2, _⟩ => rfl
    have er : r.val = ((r0_5.emb (ix3 u r q)) 1).val := by show r.val = 0 + 1 * r.val; omega
    show Cert.Align.wgt (x1 (r0_3.idx (ix3 (0 : Fin 1) (0 : Fin 1) p))) (x2 (r0_3.idx (ix3 (0 : Fin 1) (0 : Fin 1) p))) r.val
        * x0 (r0_4.idx (ix3 (0 : Fin 1) p q)) = _
    rw [e1, e0, er]
    rfl
  · -- the piece at batch 0 of the block
    obtain rfl := List.mem_singleton.mp hpc
    obtain ⟨u, r, q, rfl⟩ : ∃ (u : Fin 1) (r : Fin 2048) (q : Fin 512), x = ix3 u r q := ⟨x 0, x 1, x 2, eq_ix3 x⟩
    have hu : u.val = 0 := by omega
    rw [pay2_eq]
    refine (batch_apply _ _ _ u r q).trans ?_
    refine Finset.sum_congr rfl fun p _ => ?_
    have e1 : r0_0.idx (ix3 (0 : Fin 1) (0 : Fin 1) p) = ix3 ((r0_2.emb (ix3 u r q)) 0) (0 : Fin 1) p := by
      funext a; apply Fin.ext
      match a with
      | ⟨0, _⟩ => show 0 + 1 * 0 = 0 + 1 * u.val; omega
      | ⟨1, _⟩ => rfl
      | ⟨2, _⟩ => show 0 + 1 * p.val = p.val; omega
    have e0 : r0_1.idx (ix3 (0 : Fin 1) p q) = ix3 ((r0_2.emb (ix3 u r q)) 0) p ((r0_2.emb (ix3 u r q)) 2) := by
      funext a; apply Fin.ext
      match a with
      | ⟨0, _⟩ => show 0 + 1 * 0 = 0 + 1 * u.val; omega
      | ⟨1, _⟩ => show 0 + 1 * p.val = p.val; omega
      | ⟨2, _⟩ => rfl
    have er : r.val = ((r0_2.emb (ix3 u r q)) 1).val := by show r.val = 0 + 1 * r.val; omega
    show Cert.Align.wgt (x1 (r0_0.idx (ix3 (0 : Fin 1) (0 : Fin 1) p))) (x2 (r0_0.idx (ix3 (0 : Fin 1) (0 : Fin 1) p))) r.val
        * x0 (r0_1.idx (ix3 (0 : Fin 1) p q)) = _
    rw [e1, e0, er]
    rfl

/-- A block is a restriction of the regulated output: if the staged blocks read, at the block's batch, what the arrays
    hold at the array's batch, and the block's frame and channel are the array's, the block's element is the array's. -/
theorem point_eq (enc : FVec Ideal S32x256x512 .f32) (st cu : S32x1x256.Idx → BitVec 32) (s e : IVec S32x256 32)
    (hs : ∀ (b : Fin 32) (p : Fin 256), st (ix3 b (0 : Fin 1) p) = s (ix2 b p))
    (he : ∀ (b : Fin 32) (p : Fin 256), cu (ix3 b (0 : Fin 1) p) = e (ix2 b p))
    (x0 : Vec Ideal S2x256x512 .f32) (x1 x2 : Vec Ideal S2x1x256 .i32) (y : S2x2048x512.Idx) (j : S32x2048x512.Idx)
    (h0 : ∀ p : Fin 256, x0 (ix3 (y 0) p (y 2)) = enc (ix3 (j 0) p (j 2)))
    (h1 : ∀ p : Fin 256, x1 (ix3 (y 0) (0 : Fin 1) p) = st (ix3 (j 0) (0 : Fin 1) p))
    (h2 : ∀ p : Fin 256, x2 (ix3 (y 0) (0 : Fin 1) p) = cu (ix3 (j 0) (0 : Fin 1) p))
    (hr : (y 1).val = (j 1).val) :
    blockOut x0 x1 x2 y = Cert.Align.regulate enc s e j := by
  unfold blockOut Cert.Align.regulate
  refine Finset.sum_congr rfl fun p _ => ?_
  rw [h0, h1, h2, hs (j 0) p, he (j 0) p, hr]

/-! ## The start and end frames as the region finds them -/

variable (m : (ℓ : Loc nD τ sig) → Buf (Elt Ideal) ℓ) (ρ : Dev nD → PrngReg)

attribute [local irreducible] Host.reduceWindow in
/-- Window 1's array when the region is entered: the start frames of the log-durations, given a unit middle axis. The
    host operations before the region are the chain `Cert.Align.start` spells, the running total kept closed. -/
theorem V_start (c : Dev nD) :
    (V m c main_v13 : S32x1x256.Idx → BitVec 32)
      = shapeCast S32x1x256 (Cert.Align.start (m ((c : Thread nD τ).loc main_arg1))) shapeCasts_S32x256_S32x1x256 := by
  dsimp only [Gen.V]
  simp only [hostOps0, hostOps0_1, hostOps0_2, List.flatten_cons, List.flatten_nil, List.append_nil, List.cons_append,
    List.nil_append]
  after_results
  rfl

attribute [local irreducible] Host.reduceWindow in
/-- Window 2's array when the region is entered: the end frames, given a unit middle axis. -/
theorem V_cum (c : Dev nD) :
    (V m c main_v14 : S32x1x256.Idx → BitVec 32)
      = shapeCast S32x1x256 (Cert.Align.cum (m ((c : Thread nD τ).loc main_arg1))) shapeCasts_S32x256_S32x1x256 := by
  dsimp only [Gen.V]
  simp only [hostOps0, hostOps0_1, hostOps0_2, List.flatten_cons, List.flatten_nil, List.append_nil, List.cons_append,
    List.nil_append]
  after_results
  rfl

/-- A [32, 256] array given a unit middle axis reads, at (b, 0, p), its entry (b, p): the same row-major position. -/
theorem addMiddleUnit_apply (x : IVec S32x256 32) (h : S32x256.ShapeCasts S32x1x256) (b : Fin 32) (p : Fin 256) :
    shapeCast S32x1x256 x h (ix3 b (0 : Fin 1) p) = x (ix2 b p) :=
  shapeCast_apply x h _ _ (by
    rw [Shape.rowMajor_val_two, Shape.rowMajor_val_three]
    show b.val * 256 + p.val = (b.val * 1 + 0) * 256 + p.val
    omega)

theorem V_start_apply (c : Dev nD) (b : Fin 32) (p : Fin 256) :
    (V m c main_v13 : S32x1x256.Idx → BitVec 32) (ix3 b (0 : Fin 1) p)
      = Cert.Align.start (m ((c : Thread nD τ).loc main_arg1)) (ix2 b p) := by
  rw [V_start]
  exact addMiddleUnit_apply _ _ b p

theorem V_cum_apply (c : Dev nD) (b : Fin 32) (p : Fin 256) :
    (V m c main_v14 : S32x1x256.Idx → BitVec 32) (ix3 b (0 : Fin 1) p)
      = Cert.Align.cum (m ((c : Thread nD τ).loc main_arg1)) (ix2 b p) := by
  rw [V_cum]
  exact addMiddleUnit_apply _ _ b p

/-! ## What point `t` writes back -/

/-- The printed index maps, decided over the sixteen points: every window's block index is the point's on the batch
    axis and zero on the other two, and the output's batch block index is below sixteen. -/
theorem idx_facts : ∀ t : Fin cfg0.N,
    win0_0.index t (0 : Fin 3) = win0_3.index t (0 : Fin 3) ∧ win0_0.index t (1 : Fin 3) = 0 ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (1 : Fin 3) = 0 ∧ win0_3.index t (2 : Fin 3) = 0 ∧ win0_3.index t (0 : Fin 3) ≤ 15 :=
  (by decide +kernel : ∀ t : Fin grid0.N, _)

/-- Every batch pair is some point's output block. -/
theorem idx_onto : ∀ q0 : Fin 16, ∃ t : Fin cfg0.N, win0_3.index t = ![q0.val, 0, 0] :=
  (by decide +kernel : ∀ q0 : Fin 16, ∃ t : Fin grid0.N, win0_3.index t = ![q0.val, 0, 0])

/-- The encoder block at point `t`, read at the block's batch, is the encoder array at the output block's batch. -/
theorem read_enc (c : Dev nD) (t : Fin cfg0.N) (y : S2x2048x512.Idx) (p : Fin 256) :
    iblk m c 0 t (ix3 (y 0) p (y 2))
      = V m c main_arg0 (ix3 ((((cfg0.win 3).blk t).view.emb y) 0) p ((((cfg0.win 3).blk t).view.emb y) 2)) := by
  obtain ⟨e00, e01, e02, e10, e11, e12, e20, e21, e22, e31, e32, e3b⟩ := idx_facts t
  show V m c main_arg0 (((cfg0.win 0).blk t).view.emb (ix3 (y 0) p (y 2))) = _
  refine congrArg (V m c main_arg0) ?_
  funext a; apply Fin.ext
  match a with
  | ⟨0, _⟩ => show win0_0.index t (0 : Fin 3) * 2 + 1 * (y 0).val = win0_3.index t (0 : Fin 3) * 2 + 1 * (y 0).val; omega
  | ⟨1, _⟩ => show win0_0.index t (1 : Fin 3) * 256 + 1 * p.val = p.val; omega
  | ⟨2, _⟩ => show win0_0.index t (2 : Fin 3) * 512 + 1 * (y 2).val = win0_3.index t (2 : Fin 3) * 512 + 1 * (y 2).val; omega

/-- The start-frame block at point `t` likewise. -/
theorem read_start (c : Dev nD) (t : Fin cfg0.N) (y : S2x2048x512.Idx) (p : Fin 256) :
    iblk m c 1 t (ix3 (y 0) (0 : Fin 1) p)
      = (V m c main_v13 : S32x1x256.Idx → BitVec 32) (ix3 ((((cfg0.win 3).blk t).view.emb y) 0) (0 : Fin 1) p) := by
  obtain ⟨e00, e01, e02, e10, e11, e12, e20, e21, e22, e31, e32, e3b⟩ := idx_facts t
  show V m c main_v13 (((cfg0.win 1).blk t).view.emb (ix3 (y 0) (0 : Fin 1) p)) = _
  refine congrArg (V m c main_v13) ?_
  funext a; apply Fin.ext
  match a with
  | ⟨0, _⟩ => show win0_1.index t (0 : Fin 3) * 2 + 1 * (y 0).val = win0_3.index t (0 : Fin 3) * 2 + 1 * (y 0).val; omega
  | ⟨1, _⟩ => show win0_1.index t (1 : Fin 3) * 1 + 1 * 0 = 0; omega
  | ⟨2, _⟩ => show win0_1.index t (2 : Fin 3) * 256 + 1 * p.val = p.val; omega

/-- The end-frame block at point `t` likewise. -/
theorem read_cum (c : Dev nD) (t : Fin cfg0.N) (y : S2x2048x512.Idx) (p : Fin 256) :
    iblk m c 2 t (ix3 (y 0) (0 : Fin 1) p)
      = (V m c main_v14 : S32x1x256.Idx → BitVec 32) (ix3 ((((cfg0.win 3).blk t).view.emb y) 0) (0 : Fin 1) p) := by
  obtain ⟨e00, e01, e02, e10, e11, e12, e20, e21, e22, e31, e32, e3b⟩ := idx_facts t
  show V m c main_v14 (((cfg0.win 2).blk t).view.emb (ix3 (y 0) (0 : Fin 1) p)) = _
  refine congrArg (V m c main_v14) ?_
  funext a; apply Fin.ext
  match a with
  | ⟨0, _⟩ => show win0_2.index t (0 : Fin 3) * 2 + 1 * (y 0).val = win0_3.index t (0 : Fin 3) * 2 + 1 * (y 0).val; omega
  | ⟨1, _⟩ => show win0_2.index t (1 : Fin 3) * 1 + 1 * 0 = 0; omega
  | ⟨2, _⟩ => show win0_2.index t (2 : Fin 3) * 256 + 1 * p.val = p.val; omega

/-- The output block's frame is the array's frame: the block index on the frame axis is zero. -/
theorem read_frame (t : Fin cfg0.N) (y : S2x2048x512.Idx) : (y 1).val = ((((cfg0.win 3).blk t).view.emb y) 1).val := by
  obtain ⟨e00, e01, e02, e10, e11, e12, e20, e21, e22, e31, e32, e3b⟩ := idx_facts t
  show (y 1).val = win0_3.index t (1 : Fin 3) * 2048 + 1 * (y 1).val
  omega

/-- The output array as one function of what the region finds: the regulated output of the encoder array and the start
    and end frames of the log-durations. -/
def arrV (c : Dev nD) : FVec Ideal S32x2048x512 .f32 :=
  Cert.Align.regulate (V m c main_arg0) (Cert.Align.start (m ((c : Thread nD τ).loc main_arg1)))
    (Cert.Align.cum (m ((c : Thread nD τ).loc main_arg1)))

/-- WHAT POINT `t` WRITES BACK is block `t` of that function. -/
theorem flushed_eq (c : Dev nD) (t : Fin cfg0.N) :
    (dats m 0 c).flushed 3 t = ((cfg0.win 3).blk t).view.read (Elt Ideal) (arrV m c) := by
  rw [Value.flushed3]
  funext y
  show out0_3 (iblk m c 0 t) (iblk m c 1 t) (iblk m c 2 t) y = arrV m c (((cfg0.win 3).blk t).view.emb y)
  refine (congrFun (out_eq (iblk m c 0 t) (iblk m c 1 t) (iblk m c 2 t)) y).trans ?_
  exact point_eq (V m c main_arg0) (V m c main_v13) (V m c main_v14) _ _ (V_start_apply m c) (V_cum_apply m c)
    (iblk m c 0 t) (iblk m c 1 t) (iblk m c 2 t) y (((cfg0.win 3).blk t).view.emb y)
    (read_enc m c t y) (read_start m c t y) (read_cum m c t y) (read_frame t y)

/-! ## The sixteen blocks tile the output -/

/-- An index of the array is in point `t`'s block iff each coordinate is in the block's range on its axis. -/
theorem mem_blk (t : Fin cfg0.N) (i : S32x2048x512.Idx) :
    i ∈ ((cfg0.win 3).blk t).view.set ↔ ∀ a : Fin 3, win0_3.index t a * S2x2048x512.size a ≤ (i a).val
      ∧ (i a).val < win0_3.index t a * S2x2048x512.size a + S2x2048x512.size a := by
  show i ∈ ((View.whole main_v15).slice (win0_3.rect t)).set ↔ _
  rw [View.set_slice_whole, Rect.mem_set_unit]
  exact Iff.rfl

/-- Batch `b` lies in the block of the point whose block index is `b / 2`, with every frame and channel. -/
theorem cover (i : S32x2048x512.Idx) :
    ∃ t : Fin cfg0.N, (cfg0.win 3).flush t = true ∧ i ∈ ((cfg0.win 3).blk t).view.set := by
  have hi0 : (i 0).val < 32 := (i 0).isLt
  have hi1 : (i 1).val < 2048 := (i 1).isLt
  have hi2 : (i 2).val < 512 := (i 2).isLt
  obtain ⟨t, ht⟩ := idx_onto ⟨(i 0).val / 2, by omega⟩
  have q0 : win0_3.index t (0 : Fin 3) = (i 0).val / 2 := congrFun ht 0
  have q1 : win0_3.index t (1 : Fin 3) = 0 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 2 ≤ (i 0).val ∧ (i 0).val < win0_3.index t (0 : Fin 3) * 2 + 2; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 512 ≤ (i 2).val ∧ (i 2).val < win0_3.index t (2 : Fin 3) * 512 + 512; omega

/-- THE ARRAY after the run: the regulated output of the encoder output as launched and the start and end frames of
    the log-durations as launched. -/
theorem final (c : Dev nD) :
    (dats m 0 c).arrAt 3 cfg0.N
      = Cert.Align.regulate (m ((c : Thread nD τ).loc main_arg0)) (Cert.Align.start (m ((c : Thread nD τ).loc main_arg1)))
          (Cert.Align.cum (m ((c : Thread nD τ).loc main_arg1))) := by
  rw [(dats m 0 c).arrAt_eq_of_cover 3 (arrV m c) (fun t _ => flushed_eq m c t) cover]
  unfold arrV
  rw [V_main_arg0]

/-! ## The run, read -/

/-- The kernel's run re-posted: its result is the regulated output of its arguments, which end unchanged. -/
theorem run : θ_run defs (onTc (τ := τ) (main (F := Ideal))) ⟨m, fun _ => 0, ρ⟩ fun r => ∀ c : Dev nD,
      r.2.mem ((c : Thread nD τ).loc main_v15)
        = Cert.Align.regulate (m ((c : Thread nD τ).loc main_arg0)) (Cert.Align.start (m ((c : Thread nD τ).loc main_arg1)))
            (Cert.Align.cum (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.KValue

end
-- ==== Proof.RefRun.lean ====
/-
  The reference's run, read back: what its result buffer holds after every weakly fair execution.

  The reference is a straight line of thirty-one host operations once the running-total function it calls is unfolded
  at its call site (its three operations: the zero, the zero's broadcast to a scalar, the windowed sum). Up to the
  subtraction the line computes the start and end frames of every phoneme — the chain `Cert.Align.start` / `Cert.Align.cum`
  of the log-durations, kept closed here —; then it lays the frame numbers `0 … 2047` along the middle axis of a
  [32, 2048, 256] array, the start frames and the end frames along its outer axes, compares, joins the two one-bit
  conditions, reads the bit as a float (unsigned) and contracts the phoneme axis against the encoder output, batch by
  batch: `refOut`. A buffer's contents after a straight line are the fold of the operations' results over the launch
  contents, and that fold at the result buffer is `refOut` of the two argument arrays by computation.
-/
import proofs.«123536_j65644280152320_2_alg».proof.Proof.Gen.ReferenceIdeal
import proofs.«123536_j65644280152320_2_alg».proof.Proof.Align
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

section Ops
variable {F : FTy → Type} [FloatOps F]

/-- @main's operations in order, the running total's three unfolded where it is called. -/
abbrev ops : List (HloOp τ sig (Elt F)) :=
  [ nullary main_cst (constant S_ .f32 0x00000000#32),
    unary main_cst main_v0 (broadcastInDim S32x256x1 ![] bcast_S_S32x256x1 : (⟨S_, .f32⟩ : BufTy).Contents (Elt F) → (⟨S32x256x1, .f32⟩ : BufTy).Contents (Elt F)),
    binary main_arg1 main_v0 main_v1 (cmpf .ogt : (⟨S32x256x1, .f32⟩ : BufTy).Contents (Elt F) → (⟨S32x256x1, .f32⟩ : BufTy).Contents (Elt F) → (⟨S32x256x1, .i1⟩ : BufTy).Contents (Elt F)),
    unary main_v1 main_v2 ((extui 32 · natLt_1_32) : (⟨S32x256x1, .i1⟩ : BufTy).Contents (Elt F) → (⟨S32x256x1, .i32⟩ : BufTy).Contents (Elt F)),
    nullary main_cst_0 (constant S_ .f32 0x40000000#32),
    unary main_cst_0 main_v3 (broadcastInDim S32x256x1 ![] bcast_S_S32x256x1 : (⟨S_, .f32⟩ : BufTy).Contents (Elt F) → (⟨S32x256x1, .f32⟩ : BufTy).Contents (Elt F)),
    binary main_v3 main_arg1 main_v4 (Host.powf : (⟨S32x256x1, .f32⟩ : BufTy).Contents (Elt F) → (⟨S32x256x1, .f32⟩ : BufTy).Contents (Elt F) → (⟨S32x256x1, .f32⟩ : BufTy).Contents (Elt F)),
    nullary main_cst_1 (constant S_ .f32 0x38D1B717#32),
    unary main_cst_1 main_v5 (broadcastInDim S32x256x1 ![] bcast_S_S32x256x1 : (⟨S_, .f32⟩ : BufTy).Contents (Elt F) → (⟨S32x256x1, .f32⟩ : BufTy).Contents (Elt F)),
    binary main_v4 main_v5 main_v6 (addf : (⟨S32x256x1, .f32⟩ : BufTy).Contents (Elt F) → (⟨S32x256x1, .f32⟩ : BufTy).Contents (Elt F) → (⟨S32x256x1, .f32⟩ : BufTy).Contents (Elt F)),
    unary main_v6 main_v7 (Host.floor : (⟨S32x256x1, .f32⟩ : BufTy).Contents (Elt F) → (⟨S32x256x1, .f32⟩ : BufTy).Contents (Elt F)),
    unary main_v7 main_v8 (fptosi 32 : (⟨S32x256x1, .f32⟩ : BufTy).Contents (Elt F) → (⟨S32x256x1, .i32⟩ : BufTy).Contents (Elt F)),
    binary main_v8 main_v2 main_v9 (muli : (⟨S32x256x1, .i32⟩ : BufTy).Contents (Elt F) → (⟨S32x256x1, .i32⟩ : BufTy).Contents (Elt F) → (⟨S32x256x1, .i32⟩ : BufTy).Contents (Elt F)),
    reshape main_v9 main_v10 rfl shapeCasts_S32x256x1_S32x256,
    TRef.nullary main_call0.call0.c (constantI S_ 32 0#32),
    TRef.unary main_call0.call0.c main_call0.call0.v0 (broadcastInDim S_ ![] bcast_S_S_),
    TRef.binary (.of main_v10) main_call0.call0.v0 main_call0.call0.v1 (fun x v => Host.reduceWindow IntOp.addi ![1, 256] ![1, 1] ![0, 255] ![0, 0] x v reduceWindows_S32x256_S32x256_w1s1p0_0_w256s1p255_0 h_S_),
    binary main_v11 main_v10 main_v12 (subi : (⟨S32x256, .i32⟩ : BufTy).Contents (Elt F) → (⟨S32x256, .i32⟩ : BufTy).Contents (Elt F) → (⟨S32x256, .i32⟩ : BufTy).Contents (Elt F)),
    nullary main_v13 (iotaInDim S2048 32 0),
    unary main_v13 main_v14 (broadcastInDim S1x2048x1 ![1] bcast_S2048_S1x2048x1_1 : (⟨S2048, .i32⟩ : BufTy).Contents (Elt F) → (⟨S1x2048x1, .i32⟩ : BufTy).Contents (Elt F)),
    unary main_v12 main_v15 (broadcastInDim S32x1x256 ![0, 2] bcast_S32x256_S32x1x256_0_2 : (⟨S32x256, .i32⟩ : BufTy).Contents (Elt F) → (⟨S32x1x256, .i32⟩ : BufTy).Contents (Elt F)),
    unary main_v14 main_v16 (broadcastInDim S32x2048x256 ![0, 1, 2] bcast_S1x2048x1_S32x2048x256_0_1_2 : (⟨S1x2048x1, .i32⟩ : BufTy).Contents (Elt F) → (⟨S32x2048x256, .i32⟩ : BufTy).Contents (Elt F)),
    unary main_v15 main_v17 (broadcastInDim S32x2048x256 ![0, 1, 2] bcast_S32x1x256_S32x2048x256_0_1_2 : (⟨S32x1x256, .i32⟩ : BufTy).Contents (Elt F) → (⟨S32x2048x256, .i32⟩ : BufTy).Contents (Elt F)),
    binary main_v16 main_v17 main_v18 (cmpi .sge : (⟨S32x2048x256, .i32⟩ : BufTy).Contents (Elt F) → (⟨S32x2048x256, .i32⟩ : BufTy).Contents (Elt F) → (⟨S32x2048x256, .i1⟩ : BufTy).Contents (Elt F)),
    unary main_v11 main_v19 (broadcastInDim S32x1x256 ![0, 2] bcast_S32x256_S32x1x256_0_2 : (⟨S32x256, .i32⟩ : BufTy).Contents (Elt F) → (⟨S32x1x256, .i32⟩ : BufTy).Contents (Elt F)),
    unary main_v14 main_v20 (broadcastInDim S32x2048x256 ![0, 1, 2] bcast_S1x2048x1_S32x2048x256_0_1_2 : (⟨S1x2048x1, .i32⟩ : BufTy).Contents (Elt F) → (⟨S32x2048x256, .i32⟩ : BufTy).Contents (Elt F)),
    unary main_v19 main_v21 (broadcastInDim S32x2048x256 ![0, 1, 2] bcast_S32x1x256_S32x2048x256_0_1_2 : (⟨S32x1x256, .i32⟩ : BufTy).Contents (Elt F) → (⟨S32x2048x256, .i32⟩ : BufTy).Contents (Elt F)),
    binary main_v20 main_v21 main_v22 (cmpi .slt : (⟨S32x2048x256, .i32⟩ : BufTy).Contents (Elt F) → (⟨S32x2048x256, .i32⟩ : BufTy).Contents (Elt F) → (⟨S32x2048x256, .i1⟩ : BufTy).Contents (Elt F)),
    binary main_v18 main_v22 main_v23 (andi : (⟨S32x2048x256, .i1⟩ : BufTy).Contents (Elt F) → (⟨S32x2048x256, .i1⟩ : BufTy).Contents (Elt F) → (⟨S32x2048x256, .i1⟩ : BufTy).Contents (Elt F)),
    unary main_v23 main_v24 (uitofp .f32 : (⟨S32x2048x256, .i1⟩ : BufTy).Contents (Elt F) → (⟨S32x2048x256, .f32⟩ : BufTy).Contents (Elt F)),
    binary main_v24 main_arg0 main_v25 ((fun l r => Host.dotGeneral dot_S32x2048x256_S32x256x512_S32x2048x512_2_1_1_2_0_0 none l r) : (⟨S32x2048x256, .f32⟩ : BufTy).Contents (Elt F) → (⟨S32x256x512, .f32⟩ : BufTy).Contents (Elt F) → (⟨S32x2048x512, .f32⟩ : BufTy).Contents (Elt F)) ]

-- thirty-one binds re-associated, one level of the rewriter's recursion per statement
set_option maxRecDepth 1024 in
/-- @main is that straight line: the called functions unfolded at the call, both sides are one chain of steps once
    sequencing is re-associated. -/
theorem main_eq (c : Dev nD) : main (F := F) c = seq ops := by
  simp only [main, fn_cumsum.body, fn_cumsum_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., unary_bufs_sub .., nullary_bufs_sub .., unary_bufs_sub ..,
    binary_bufs_sub .., nullary_bufs_sub .., unary_bufs_sub .., binary_bufs_sub .., unary_bufs_sub .., unary_bufs_sub ..,
    binary_bufs_sub .., reshape_bufs_sub .., nullary_bufs_sub .., unary_bufs_sub .., binary_bufs_sub .., binary_bufs_sub ..,
    nullary_bufs_sub .., unary_bufs_sub .., unary_bufs_sub .., unary_bufs_sub .., unary_bufs_sub .., binary_bufs_sub ..,
    unary_bufs_sub .., unary_bufs_sub .., unary_bufs_sub .., binary_bufs_sub .., binary_bufs_sub .., unary_bufs_sub ..,
    binary_bufs_sub ..⟩

end Ops

/-! ## The result as one term of the two arguments -/

/-- The frame numbers laid along the middle axis of a [32, 2048, 256] array. -/
def frames : IVec S32x2048x256 32 :=
  broadcastInDim S32x2048x256 ![0, 1, 2] bcast_S1x2048x1_S32x2048x256_0_1_2
    (broadcastInDim S1x2048x1 ![1] bcast_S2048_S1x2048x1_1 (iotaInDim S2048 32 0))

/-- One integer per batch and phoneme laid along the outer axes of a [32, 2048, 256] array. -/
def perPhoneme (x : IVec S32x256 32) : IVec S32x2048x256 32 :=
  broadcastInDim S32x2048x256 ![0, 1, 2] bcast_S32x1x256_S32x2048x256_0_1_2
    (broadcastInDim S32x1x256 ![0, 2] bcast_S32x256_S32x1x256_0_2 x)

/-- The reference's result: the alignment bits `start ≤ t < end` read unsigned as floats, contracted over the phonemes
    against the encoder output within each batch. -/
def refOut (enc : FVec Ideal S32x256x512 .f32) (ld : FVec Ideal S32x256x1 .f32) : FVec Ideal S32x2048x512 .f32 :=
  Host.dotGeneral dot_S32x2048x256_S32x256x512_S32x2048x512_2_1_1_2_0_0 none
    (uitofp (F := Ideal) .f32
      (andi (cmpi .sge frames (perPhoneme (Cert.Align.start ld))) (cmpi .slt frames (perPhoneme (Cert.Align.cum ld)))))
    enc

attribute [local irreducible] Host.reduceWindow in
set_option maxRecDepth 8192 in
/-- The fold at the result buffer is `refOut` by computation: each operation's result is read at the buffer it writes,
    the typed references of the called function are the buffers they name. The windowed sum stays closed meanwhile:
    the equation never looks inside it. -/
theorem out_eq (V : Valuation τ sig (Elt Ideal)) :
    after ops V (main_v25 : DevRef τ sig) = refOut (V (main_arg0 : DevRef τ sig)) (V (main_arg1 : DevRef τ sig)) := by
  after_results
  rfl

theorem arg0_eq (V : Valuation τ sig (Elt Ideal)) : after ops V (main_arg0 : DevRef τ sig) = V (main_arg0 : DevRef τ sig) := by
  after_results

theorem arg1_eq (V : Valuation τ sig (Elt Ideal)) : after ops V (main_arg1 : DevRef τ sig) = V (main_arg1 : DevRef τ sig) := by
  after_results

/-- On the one device, from any memory with zero counters: every weakly fair execution of the reference terminates with
    its result at `refOut` of the argument arrays and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25)
        = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v25).trans (out_eq _),
      (h c main_arg0).trans (arg0_eq _),
      (h c main_arg1).trans (arg1_eq _)⟩)
    (run_seq scopedRefs_eq scopedSems_eq defs main (fun _ => ops) main_eq (fun _ => ops_sub) m ρ)

end Cert.ReferenceIdeal.RefRun

end
-- ==== Proof.RefValue.lean ====
/-
  The reference's result is the regulated output.

  Read at (batch `b`, frame `t`, channel `c`) the reference's batched contraction is the sum over the phonemes `p` of
  the left operand at (b, t, p) times the encoder output at (b, p, c). The left operand there is the one-bit condition
  `start[b, p] ≤ t < end[b, p]` read unsigned as a float: the frame numbers broadcast along the middle axis read `t`, the
  start and end frames broadcast along the outer axes read their (b, p) entry. That is the weight of `Cert.Align`, so the
  sum is `Cert.Align.regulate` of the encoder output and the start and end frames, term by term.
-/
import proofs.«123536_j65644280152320_2_alg».proof.Proof.RefRun
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.RefRun Idealize.ShloMosaic Idealize.ShloMosaic.ValueIdx

/-- The frame numbers, laid along the middle axis, read the frame. -/
theorem frames_apply (b : Fin 32) (t : Fin 2048) (p : Fin 256) : frames (ix3 b t p) = BitVec.ofNat 32 t.val := by
  unfold frames
  refine (broadcastInDim_apply _ _ _ (ix3 b t p) (ix3 (0 : Fin 1) t (0 : Fin 1)) ?_).trans ?_
  · intro a
    match a with
    | ⟨0, _⟩ => rfl
    | ⟨1, _⟩ => rfl
    | ⟨2, _⟩ => rfl
  refine (broadcastInDim_apply _ _ _ (ix3 (0 : Fin 1) t (0 : Fin 1)) (ix1 t) ?_).trans ?_
  · intro a
    match a with
    | ⟨0, _⟩ => rfl
  rfl

/-- An integer per batch and phoneme, laid along the outer axes, reads its (batch, phoneme) entry. -/
theorem perPhoneme_apply (x : IVec S32x256 32) (b : Fin 32) (t : Fin 2048) (p : Fin 256) :
    perPhoneme x (ix3 b t p) = x (ix2 b p) := by
  unfold perPhoneme
  refine (broadcastInDim_apply _ _ _ (ix3 b t p) (ix3 b (0 : Fin 1) p) ?_).trans ?_
  · intro a
    match a with
    | ⟨0, _⟩ => rfl
    | ⟨1, _⟩ => rfl
    | ⟨2, _⟩ => rfl
  refine (broadcastInDim_apply _ _ _ (ix3 b (0 : Fin 1) p) (ix2 b p) ?_).trans rfl
  intro a
  match a with
  | ⟨0, _⟩ => rfl
  | ⟨1, _⟩ => rfl

/-- The alignment bit read unsigned as a float is the weight of frame `t` in phoneme `p` of batch `b`. -/
theorem align_apply (s e : IVec S32x256 32) (b : Fin 32) (t : Fin 2048) (p : Fin 256) :
    uitofp (F := Ideal) .f32 (andi (cmpi .sge frames (perPhoneme s)) (cmpi .slt frames (perPhoneme e))) (ix3 b t p)
      = Cert.Align.wgt (s (ix2 b p)) (e (ix2 b p)) t.val := by
  show (((IntOp.andi (IntOp.cmpi .sge (frames (ix3 b t p)) (perPhoneme s (ix3 b t p)))
      (IntOp.cmpi .slt (frames (ix3 b t p)) (perPhoneme e (ix3 b t p)))).toNat : ℝ) : EReal) = _
  rw [frames_apply, perPhoneme_apply, perPhoneme_apply]
  rfl

/-- The contraction's left and right operand indices at output index (b, t, c) and phoneme `p`. -/
theorem lhsIdx_eq (b : Fin 32) (t : Fin 2048) (c : Fin 512) (p : Fin 256) :
    dot_S32x2048x256_S32x256x512_S32x2048x512_2_1_1_2_0_0.lhsIdx (ix3 b t c)
        ((contrEquiv1 dot_S32x2048x256_S32x256x512_S32x2048x512_2_1_1_2_0_0 256 rfl rfl).symm p) = ix3 b t p := by
  funext a
  apply Fin.ext
  match a with
  | ⟨0, _⟩ => rfl
  | ⟨1, _⟩ => rfl
  | ⟨2, _⟩ =>
    exact (DotDims.lhsIdx_val_of_single _ rfl _ _).trans
      (contrEquiv1_symm_val dot_S32x2048x256_S32x256x512_S32x2048x512_2_1_1_2_0_0 256 rfl rfl p)

theorem rhsIdx_eq (b : Fin 32) (t : Fin 2048) (c : Fin 512) (p : Fin 256) :
    dot_S32x2048x256_S32x256x512_S32x2048x512_2_1_1_2_0_0.rhsIdx (ix3 b t c)
        ((contrEquiv1 dot_S32x2048x256_S32x256x512_S32x2048x512_2_1_1_2_0_0 256 rfl rfl).symm p) = ix3 b p c := by
  funext a
  apply Fin.ext
  match a with
  | ⟨0, _⟩ => rfl
  | ⟨2, _⟩ => rfl
  | ⟨1, _⟩ =>
    exact (DotDims.rhsIdx_val_of_single _ rfl _ _).trans
      (contrEquiv1_symm_val dot_S32x2048x256_S32x256x512_S32x2048x512_2_1_1_2_0_0 256 rfl rfl p)

/-- The reference's result is the regulated output of the encoder output and the start and end frames. -/
theorem refOut_eq (enc : FVec Ideal S32x256x512 .f32) (ld : FVec Ideal S32x256x1 .f32) :
    refOut enc ld = Cert.Align.regulate enc (Cert.Align.start ld) (Cert.Align.cum ld) := by
  unfold refOut
  generalize Cert.Align.start ld = s
  generalize Cert.Align.cum ld = e
  funext j
  obtain ⟨b, t, c, rfl⟩ : ∃ (b : Fin 32) (t : Fin 2048) (c : Fin 512), j = ix3 b t c := ⟨j 0, j 1, j 2, eq_ix3 j⟩
  rw [Cert.Align.regulate_ix]
  refine (Ideal.dotGeneral_apply dot_S32x2048x256_S32x256x512_S32x2048x512_2_1_1_2_0_0 none _ _ enc (ix3 b t c)).trans ?_
  rw [← Equiv.sum_comp (contrEquiv1 dot_S32x2048x256_S32x256x512_S32x2048x512_2_1_1_2_0_0 256 rfl rfl).symm]
  refine Finset.sum_congr rfl fun p _ => ?_
  rw [lhsIdx_eq, rhsIdx_eq, align_apply]

end Cert.ReferenceIdeal.RefValue

end
-- ==== Proof.lean ====
/-
  The length regulator: a Pallas kernel against its jnp reference, equal on the extended reals.

  Both programs turn the log-durations into integer durations, take their running total along the phonemes (the end
  frame of each phoneme, exclusive) and subtract to get the start frames — the same host operations in the same order on
  the same argument, a chain this certificate carries closed (`Cert.Align.dur`, `cum`, `start`). Frame `t` of a batch
  belongs to phoneme `p` when `start ≤ t < end`, and the output is

      out[b, t, c] = ∑ p, [start[b, p] ≤ t < end[b, p]] · enc[b, p, c]      (`Cert.Align.regulate`).

  The reference forms the whole [32, 2048, 256] alignment array on the host, reads its one-bit entries unsigned as
  floats and contracts the phoneme axis against the encoder output batch by batch; read at an index that is the sum
  above (`Proof/RefRun.lean`: the reference's run read back, its call to the running-total function unfolded;
  `Proof/RefValue.lean`: the result is `regulate`). The kernel walks sixteen grid points of two batches each; for each
  batch it builds the [2048, 256] alignment matrix in place (the bit widened to 32 bits and read signed — the same
  number —, then narrowed to bf16, the identity on the extended reals), multiplies it into the batch's [256, 512] slab
  from a zero accumulator and stores the [2048, 512] product; read at an index that is the same sum
  (`Proof/KernelPayload.lean`), each written block is a restriction of `regulate`, and the sixteen blocks tile the output
  (`Proof/KernelValue.lean`). The two sums have the same terms in the same finite index set, so no finiteness of the
  inputs is used. The ideal pass rewrote nothing in the kernel, so the idealization claim is trivial; the three frame
  claims are the generated frame certificates of the two kernel programs and, for the reference, its run with the
  result dropped.
-/
import proofs.«123536_j65644280152320_2_alg».proof.Defs
import proofs.«123536_j65644280152320_2_alg».proof.Proof.Gen.Kernel
import proofs.«123536_j65644280152320_2_alg».proof.Proof.Gen.Kernel.Skeleton
import proofs.«123536_j65644280152320_2_alg».proof.Proof.Gen.Kernel.Launch
import proofs.«123536_j65644280152320_2_alg».proof.Proof.Gen.Kernel.Points
import proofs.«123536_j65644280152320_2_alg».proof.Proof.Gen.Kernel.Frame
import proofs.«123536_j65644280152320_2_alg».proof.Proof.Gen.KernelIdeal
import proofs.«123536_j65644280152320_2_alg».proof.Proof.Gen.KernelIdeal.Skeleton
import proofs.«123536_j65644280152320_2_alg».proof.Proof.Gen.KernelIdeal.Launch
import proofs.«123536_j65644280152320_2_alg».proof.Proof.Gen.KernelIdeal.Points
import proofs.«123536_j65644280152320_2_alg».proof.Proof.Gen.KernelIdeal.Frame
import proofs.«123536_j65644280152320_2_alg».proof.Proof.Gen.KernelIdeal.Value
import proofs.«123536_j65644280152320_2_alg».proof.Proof.Gen.ReferenceIdeal
import proofs.«123536_j65644280152320_2_alg».proof.Proof.Gen.Pre_finite_inputs
import proofs.«123536_j65644280152320_2_alg».proof.Proof.KernelValue
import proofs.«123536_j65644280152320_2_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run read back, the result dropped. -/
theorem frame_referenceIdeal : Cert.frame_ReferenceIdeal := fun m ρ _ =>
  (θ_run Cert.ReferenceIdeal.defs _ _).mono (fun _ h c => (h c).2) (Cert.ReferenceIdeal.RefRun.run m ρ)

/-- The ideal pass rewrote no operation of the kernel: nothing to preserve. -/
theorem preserves : Cert.preserves_Kernel_KernelIdeal := trivial

/-- From memories agreeing on the two arguments both programs end with the regulated output of the encoder output and
    the start and end frames of the log-durations: the kernel block by block, the reference by one batched contraction. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefRun.run m' ρ')
  rw [Cert.ReferenceIdeal.RefValue.refOut_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
